-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_
  bcast_S_S262144x64 : S_.BroadcastsInDim S262144x64 (![] : Fin 0 → Fin S262144x64.rank)
  reducesTo_S262144x64_S_d0_1 : S262144x64.ReducesTo [0, 1] S_

variable [Facts]

def fn_part1 {F : FTy → Type} [FloatOps F] (main_arg1 : IVec S262144x64 32) (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S262144x64 32 := broadcastInDim S262144x64 ![] bcast_S_S262144x64 main_c_8
  let main_v25 : IVec S262144x64 1 := cmpi .sge main_arg1 main_v24
  let main_c_9 : IVec S_ 1 := constantI S_ 1 1#1
  let main_v26 : IVec S_ 1 := (fun x v => Host.reduce IntOp.andi x v reducesTo_S262144x64_S_d0_1 h_S_) main_v25 main_c_9
  let main_v27 : IVec S_ 1 := andi main_v23 main_v26
  let main_c_10 : IVec S_ 32 := constantI S_ 32 15#32
  let main_v28 : IVec S262144x64 32 := broadcastInDim S262144x64 ![] bcast_S_S262144x64 main_c_10
  let main_v29 : IVec S262144x64 1 := cmpi .sle main_arg1 main_v28
  let main_c_11 : IVec S_ 1 := constantI S_ 1 1#1
  let main_v30 : IVec S_ 1 := (fun x v => Host.reduce IntOp.andi x v reducesTo_S262144x64_S_d0_1 h_S_) main_v29 main_c_11
  let main_v31 : IVec S_ 1 := andi main_v27 main_v30
  main_v31

def fn {F : FTy → Type} [FloatOps F] (main_arg0 : FVec F S4x2048x4096 .f32) (main_arg1 : IVec S262144x64 32) (main_arg2 : FVec F S262144 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_arg5 main_v13 main_v16
-- ==== Kernel.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S4096x64x64 : Shape := ⟨3, ![4096, 64, 64]⟩
abbrev S4096x64 : Shape := ⟨2, ![4096, 64]⟩
abbrev S1x4096 : Shape := ⟨2, ![1, 4096]⟩
abbrev S512x4096 : Shape := ⟨2, ![512, 4096]⟩
abbrev S256x64x64 : Shape := ⟨3, ![256, 64, 64]⟩
abbrev S256x64 : Shape := ⟨2, ![256, 64]⟩
abbrev S256x16 : Shape := ⟨2, ![256, 16]⟩
abbrev S1x256 : Shape := ⟨2, ![1, 256]⟩
abbrev S512x256 : Shape := ⟨2, ![512, 256]⟩
abbrev S256x64x1 : Shape := ⟨3, ![256, 64, 1]⟩
abbrev S256x4096 : Shape := ⟨2, ![256, 4096]⟩
abbrev S512x16 : Shape := ⟨2, ![512, 16]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S8192x4096, .f32⟩
  | .hbm, ⟨7, _⟩ => ⟨S4096x64x64, .i32⟩
  | .hbm, ⟨8, _⟩ => ⟨S4096x64, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x64x64, .i32⟩
  | .local _ .vmem, ⟨3, _⟩ => ⟨S256x64x64, .i32⟩
  | .local _ .vmem, ⟨4, _⟩ => ⟨S256x64, .f32⟩
  | .local _ .vmem, ⟨5, _⟩ => ⟨S256x64, .f32⟩
  | .local _ .vmem, ⟨6, _⟩ => ⟨S16x4096, .f32⟩
  | .local _ .vmem, ⟨7, _⟩ => ⟨S256x16, .f32⟩
  | .local _ .vmem, ⟨8, _⟩ => ⟨S256x16, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S262144x64_S4096x64x64 : S262144x64.ShapeCasts S4096x64x64
  shapeCasts_S262144_S4096x64 : S262144.ShapeCasts S4096x64
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  inb_S16x4096_S16x4096_0_0 : ∀ a, (![0, 0] : Fin 2 → Nat) a + S16x4096.size a ≤ S16x4096.size a
  h_S16x4096 : 0 < S16x4096.numel
  inb_S256x16_S256x16_0_0 : ∀ a, (![0, 0] : Fin 2 → Nat) a + S256x16.size a ≤ S256x16.size a
  h_S256x16 : 0 < S256x16.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x4096_S16x4096_S512x16_1_1_0_0_n_n_wf : DotDims.WF S512x4096 S16x4096 S512x16 [1] [1] [0] [0] [] []
  dot_S512x16_S256x16_S512x256_1_1_0_0_n_n_wf : DotDims.WF S512x16 S256x16 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S4096x64x64.size a
  hwx0_1 : ∀ i : grid0.Coords, EltTy.bits .i32 = 32 ∨ (Rect.block (s := S4096x64x64) S256x64x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S4096x16.size a
  hwx0_4 : ∀ i : grid0.Coords, EltTy.bits .f32 = 32 ∨ (Rect.block (s := S4096x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x4096.size a
  hwx0_6 : ∀ i : grid0.Coords, EltTy.bits .f32 = 32 ∨ (Rect.block (s := S8192x4096) S512x256.size (cc0_transform_6 i) (hinb0_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S256x16_S512x256_1_1_0_0_n_n : DotDims S512x16 S256x16 S512x256 where
  lhsContracting := [1]
  rhsContracting := [1]
  lhsNonContracting := [0]
  rhsNonContracting := [0]
  lhsBatch := []
  rhsBatch := []
  wf := dot_S512x16_S256x16_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S262144x64 : Shape := ⟨2, ![262144, 64]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S_ : Shape := ⟨0, ![]⟩
abbrev S262144x1 : Shape := ⟨2, ![262144, 1]⟩
abbrev S4096x4096 : Shape := ⟨2, ![4096, 4096]⟩
abbrev S1x1x4096 : Shape := ⟨3, ![1, 1, 4096]⟩
abbrev S4x2048x16 : Shape := ⟨3, ![4, 2048, 16]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S_, .i32⟩
  | .hbm, ⟨7, _⟩ => ⟨S262144x64, .i32⟩
  | .hbm, ⟨8, _⟩ => ⟨S262144x64, .i32⟩
  | .hbm, ⟨9, _⟩ => ⟨S262144x64, .f32⟩
  | .hbm, ⟨10, _⟩ => ⟨S262144x1, .f32⟩
  | .hbm, ⟨11, _⟩ => ⟨S262144x64, .f32⟩
  | .hbm, ⟨12, _⟩ => ⟨S262144x64, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The result both programs compute, as one function of the six argument arrays, index by index over the extended reals.

  The weight matrix is stored quantized: row `o` of the 4096 x 4096 matrix is cut into 64 blocks of 64 entries, block
  `o * 64 + k / 64` holds entry `(o, k)` at lane `k % 64` as a 32-bit word `w`, and one scale per block. The entry is
  `(w - 8) * scale`. With `x` of shape [4, 2048, 4096], `A` of shape [16, 4096], `B` of shape [4096, 16] and a bias `b`:

    out[i0, i1, o] = (sum_k x[i0, i1, k] * W[o, k]) + b[o] + (sum_r (sum_k x[i0, i1, k] * A[r, k]) * B[o, r]) * 1

  Both programs form these sums in this grouping, so no law of the extended reals beyond the definitions is needed to
  join them — except at the code `w - 8`: one side subtracts 8 among 32-bit words (wrapping) and then reads the word as an
  integer, the other reads the word as an integer and subtracts the real number 8. For a 4-bit code, `0 ≤ w ≤ 15`, the
  subtraction among words does not wrap and the two agree (`code_eq`).
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

abbrev SX : Shape := ⟨3, ![4, 2048, 4096]⟩
abbrev SQ : Shape := ⟨2, ![262144, 64]⟩
abbrev SS : Shape := ⟨1, ![262144]⟩
abbrev SA : Shape := ⟨2, ![16, 4096]⟩
abbrev SB : Shape := ⟨2, ![4096, 16]⟩
abbrev SBias : Shape := ⟨1, ![4096]⟩

/-! ## The code of a word -/

/-- The binary32 word 0x41000000 is the real number 8. -/
theorem ofBits_eight : Ideal.ofBits .f32 0x41000000#32 = ((8 : ℝ) : EReal) := by
  simp [Ideal.ofBits, Ideal.ieee]
  rw [← EReal.coe_mul]
  norm_num

/-- Subtracting 8 from a word in [0, 15] does not wrap: read signed, the difference is the integer difference. -/
theorem toInt_sub_eight (w : BitVec 32) (h0 : 0 ≤ w.toInt) (h15 : w.toInt ≤ 15) :
    (IntOp.subi w 8#32).toInt = w.toInt - 8 := by
  unfold IntOp.subi
  rw [BitVec.toInt_sub]
  have e8 : (8#32 : BitVec 32).toInt = 8 := by decide
  rw [e8]
  first
    | (apply Int.bmod_eq_of_le <;> omega)
    | (rw [Int.bmod_def]; split <;> omega)

/-- The code of a word: 8 subtracted among words, the result read as a signed integer. -/
def code (w : BitVec 32) : EReal := (((IntOp.subi w 8#32).toInt : ℝ) : EReal)

/-- For a 4-bit word, reading it as an integer and subtracting the real number 8 gives the same code. -/
theorem code_eq (w : BitVec 32) (h0 : 0 ≤ w.toInt) (h15 : w.toInt ≤ 15) :
    ((w.toInt : ℝ) : EReal) - Ideal.ofBits .f32 0x41000000#32 = code w := by
  unfold code
  rw [ofBits_eight, toInt_sub_eight w h0 h15, ← EReal.coe_sub]
  push_cast
  rfl

/-! ## The weight matrix and the result -/

/-- The block holding entry `(o, k)` of the weight matrix, and the entry's lane in it. -/
def blockOf (o k : Fin 4096) : Fin 262144 := ⟨o.val * 64 + k.val / 64, by have := o.isLt; have := k.isLt; omega⟩
def laneOf (k : Fin 4096) : Fin 64 := ⟨k.val % 64, Nat.mod_lt _ (by decide)⟩
/-- The block of column `k` within its own row: `k / 64`. -/
def subBlockOf (k : Fin 4096) : Fin 64 := ⟨k.val / 64, by have := k.isLt; omega⟩

/-- Entry `(o, k)` of the dequantized weight matrix: the code of its word times its block's scale. -/
def weight (q : SQ.Idx → BitVec 32) (sc : SS.Idx → EReal) (o k : Fin 4096) : EReal :=
  code (q (ix2 (blockOf o k) (laneOf k))) * sc (ix1 (blockOf o k))

/-- The result at index `i = (i0, i1, o)`: the quantized linear map of row `(i0, i1)` of `x`, plus the bias, plus the
    rank-16 correction `(x Aᵀ) Bᵀ` scaled by the word 0x3F800000. -/
def G (x : SX.Idx → EReal) (q : SQ.Idx → BitVec 32) (sc : SS.Idx → EReal) (A : SA.Idx → EReal) (B : SB.Idx → EReal)
    (b : SBias.Idx → EReal) : SX.Idx → EReal := fun i =>
  ((∑ k : Fin 4096, x (ix3 (i 0) (i 1) k) * weight q sc (i 2) k) + b (ix1 (i 2)))
    + (∑ r : Fin 16, (∑ k : Fin 4096, x (ix3 (i 0) (i 1) k) * A (ix2 r k)) * B (ix2 (i 2) r))
      * Ideal.ofBits .f32 0x3F800000#32

end Cert.QLinear

end
-- ==== Proof.RefValue.lean ====
/-
  The reference's result is `G` of its arguments.

  Read one operation at a time, the reference's result at `i = (i0, i1, o)` is

    (sum_k x[i0, i1, k] * V6[o, k] + b[o]) + (sum_r (sum_k x[i0, i1, k] * A[r, k]) * B[o, r]) * 1

  where `V6` is the [262144, 64] array of products `code(q[n, j]) * scale[n]` re-read as [4096, 4096] in row-major order:
  entry `(o, k)` is flat position `o * 4096 + k`, that is row `(o * 4096 + k) / 64 = o * 64 + k / 64` and lane
  `(o * 4096 + k) % 64 = k % 64` — the block and lane of the specification.
-/
import proofs.«136830_j9380208575265_2_alg».proof.Proof.Gen.ReferenceIdeal.Read
import proofs.«136830_j9380208575265_2_alg».proof.Proof.Spec

noncomputable section

namespace Cert.QLinear.Ref

open Cert.ReferenceIdeal Cert.ReferenceIdeal.Read Idealize.ShloMosaic Idealize.ShloMosaic.ValueIdx Cert.QLinear

/-! ## The indices the reference reads, as the specification's -/

theorem lidx7 (i : S4x2048x4096.Idx) (k : Fin 4096) : lidx_main_v7 i k = ix3 (i 0) (i 1) k :=
  funext fun a => Fin.ext (by match a with | ⟨0, _⟩ => rfl | ⟨1, _⟩ => rfl | ⟨2, _⟩ => rfl)

/-- Entry `(o, k)` of the re-read matrix is row `o * 64 + k / 64`, lane `k % 64` of the [262144, 64] array. -/
theorem idx6 (i : S4x2048x4096.Idx) (k : Fin 4096) :
    idx_main_v6 (ridx_main_v7 i k) = ix2 (blockOf (i 2) k) (laneOf k) :=
  funext fun a => Fin.ext (by
    have h2 : (i 2).val < 4096 := (i 2).isLt
    have hk : k.val < 4096 := k.isLt
    match a with
    | ⟨0, _⟩ => show ((i 2).val * 4096 + k.val) / 64 = (i 2).val * 64 + k.val / 64; omega
    | ⟨1, _⟩ => show ((i 2).val * 4096 + k.val) % 64 = k.val % 64; omega)

theorem idx3 (j : S262144x64.Idx) : idx_main_v3 (idx_main_v4 j) = ix1 (j 0) :=
  funext fun a => Fin.ext (by match a with | ⟨0, _⟩ => rfl)

theorem idx8 (i : S4x2048x4096.Idx) : idx_main_v8 (idx_main_v9 i) = ix1 (i 2) :=
  funext fun a => Fin.ext (by match a with | ⟨0, _⟩ => rfl)

theorem lidx11 (i : S4x2048x4096.Idx) (r : Fin 16) (k : Fin 4096) :
    lidx_main_v11 (lidx_main_v12 i r) k = ix3 (i 0) (i 1) k :=
  funext fun a => Fin.ext (by match a with | ⟨0, _⟩ => rfl | ⟨1, _⟩ => rfl | ⟨2, _⟩ => rfl)

theorem ridx11 (i : S4x2048x4096.Idx) (r : Fin 16) (k : Fin 4096) :
    ridx_main_v11 (lidx_main_v12 i r) k = ix2 r k :=
  funext fun a => Fin.ext (by match a with | ⟨0, _⟩ => rfl | ⟨1, _⟩ => rfl)

theorem ridx12 (i : S4x2048x4096.Idx) (r : Fin 16) : ridx_main_v12 i r = ix2 (i 2) r :=
  funext fun a => Fin.ext (by match a with | ⟨0, _⟩ => rfl | ⟨1, _⟩ => rfl)

/-! ## The stages -/

/-- The dequantized matrix the reference multiplies by, at `(o, k)`: the specification's weight. -/
theorem v6_apply (q : S262144x64.Idx → BitVec 32) (sc : S262144.Idx → EReal) (i : S4x2048x4096.Idx) (k : Fin 4096) :
    val_main_v6 (F := Ideal) q sc (ridx_main_v7 i k) = weight q sc (i 2) k := by
  rw [val_main_v6_apply, val_main_v5_apply, val_main_v2_apply, val_main_v1_apply, val_main_v0_apply, val_main_c_apply,
    val_main_v4_apply, val_main_v3_apply, idx3, idx6]
  rfl

/-- The reference's result is `G` of its arguments. -/
theorem result_eq (x : S4x2048x4096.Idx → EReal) (q : S262144x64.Idx → BitVec 32) (sc : S262144.Idx → EReal)
    (A : S16x4096.Idx → EReal) (B : S4096x16.Idx → EReal) (b : S4096.Idx → EReal) :
    val_main_v15 (F := Ideal) x q sc A B b = G x q sc A B b := by
  funext i
  rw [val_main_v15_apply, val_main_v10_apply, val_main_v14_apply, val_main_v7_apply, val_main_v9_apply, val_main_v8_apply,
    val_main_v12_apply, val_main_v13_apply, val_main_cst_apply, idx8]
  simp only [v6_apply, lidx7, val_main_v11_apply, lidx11, ridx11, ridx12]
  rfl

end Cert.QLinear.Ref

end
-- ==== Proof.CodeRange.lean ====
/-
  What the precondition says of the code words: every word of `q` is a 4-bit code, `0 ≤ q ≤ 15` read signed.

  The precondition is a conjunction of one-bit words ending in `all(q ≥ 0)` and `all(q ≤ 15)`; each `all` is a
  reduction by `and` over every index, which is 1 only if every element is, and an element is the signed comparison
  of the word with the constant.
-/
import proofs.«136830_j9380208575265_2_alg».proof.Pre_finite_inputs
import Idealize.ShloMosaic.Lib.ReduceAll
import Idealize.ShloMosaic.Lib.Affine
import Idealize.ShloMosaic.Lib.ValueIdx

noncomputable section

namespace Cert.QLinear.CodeRange

open Cert.Pre_finite_inputs Idealize.ShloMosaic

instance : Subsingleton S_.Idx := ⟨fun a b => funext fun d => d.elim0⟩

/-- Where the precondition holds, every word of the second argument lies in [0, 15]. -/
theorem of_pre [Facts] {F : FTy → Type} [FloatOps F] (a0 : FVec F S4x2048x4096 .f32) (a1 : IVec S262144x64 32)
    (a2 : FVec F S262144 .f32) (a3 : FVec F S16x4096 .f32) (a4 : FVec F S4096x16 .f32) (a5 : FVec F S4096 .f32)
    (h : fn (F := F) a0 a1 a2 a3 a4 a5 = fun _ => 1#1) (j : S262144x64.Idx) :
    0 ≤ (a1 j).toInt ∧ (a1 j).toInt ≤ 15 := by
  have e := congrFun h ValueIdx.ix0
  dsimp only [fn, fn_part1] at e
  change IntOp.andi _ _ = 1#1 at e
  obtain ⟨e1, hle⟩ := IntOp.andi_eq_one.1 e
  change IntOp.andi _ _ = 1#1 at e1
  obtain ⟨-, hge⟩ := IntOp.andi_eq_one.1 e1
  have g : IntOp.cmpi .sge (a1 j) (0#32) = 1#1 := Host.reduce_andi_all _ _ _ _ _ hge j
  have l : IntOp.cmpi .sle (a1 j) (15#32) = 1#1 := Host.reduce_andi_all _ _ _ _ _ hle j
  have g' := IntOp.cmpi_sge.1 g
  have l' := IntOp.cmpi_sle.1 l
  have z : (0#32 : BitVec 32).toInt = 0 := by decide
  have f : (15#32 : BitVec 32).toInt = 15 := by decide
  rw [z] at g'
  rw [f] at l'
  exact ⟨g', l'⟩

end Cert.QLinear.CodeRange

end
-- ==== Proof.KernelBody.lean ====
/-
  The kernel body's one store, read at an index of its [512, 256] block.

  The body loads a [512, 4096] block `x0` of rows of x, a [256, 64, 64] block `x1` of code words (256 rows of the weight
  matrix, each as 64 blocks of 64 lanes), a [256, 64] block `x2` of their scales, all of A as `x3`, a [256, 16] block
  `x4` of rows of B and a [1, 256] block `x5` of the bias. It forms `(int(x1) - 8) * x2` with each scale spread over its
  block's 64 lanes, re-reads that as [256, 4096] — entry `(n, k)` is block `k / 64`, lane `k % 64` of row `n` —, and stores

    (x0 · Wᵀ) + x5 + ((x0 · x3ᵀ) · x4ᵀ) * 1.

  Over the extended reals a change of float format is the identity and each matrix product into a zero accumulator is
  the plain sum over the contracted axis, so the stored value at `(p, n)` is `blockResult` below.
-/
import proofs.«136830_j9380208575265_2_alg».proof.Proof.Gen.KernelIdeal.Skeleton
import proofs.«136830_j9380208575265_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.QLinear.Body

open Cert.KernelIdeal Cert.KernelIdeal.Gen Idealize.ShloMosaic Idealize.ShloMosaic.ValueIdx Cert.QLinear

/-! ## The three matrix products, each entry a sum over the contracted axis -/

theorem dotW_lhs0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem dotW_rhs0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- Rows of x against rows of the dequantized weight block: entry `(p, n)` sums over the 4096 columns. -/
theorem dotW_apply (l : FVec Ideal S512x4096 .bf16) (r : FVec Ideal S256x4096 .bf16) (p : Fin 512) (n : Fin 256) :
    matmul dot_S512x4096_S256x4096_S512x256_1_1_0_0_n_n none l r (constant (F := Ideal) S512x256 .f32 0x00000000#32) (ix2 p n)
      = ∑ k : Fin 4096, l (ix2 p k) * r (ix2 n k) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p n) ((contrEquiv1 dot_S512x4096_S256x4096_S512x256_1_1_0_0_n_n 4096 rfl rfl).symm k) = ix2 p k := funext fun a => Fin.ext (by
    match a with
    | ⟨0, _⟩ => exact dotW_lhs0 _ _
    | ⟨1, _⟩ => exact (dot_S512x4096_S256x4096_S512x256_1_1_0_0_n_n.lhsIdx_val_of_single rfl _ _).trans hk)
  have er : dot_S512x4096_S256x4096_S512x256_1_1_0_0_n_n.rhsIdx (ix2 p n) ((contrEquiv1 dot_S512x4096_S256x4096_S512x256_1_1_0_0_n_n 4096 rfl rfl).symm k) = ix2 n k := funext fun a => Fin.ext (by
    match a with
    | ⟨0, _⟩ => exact dotW_rhs0 _ _
    | ⟨1, _⟩ => exact (dot_S512x4096_S256x4096_S512x256_1_1_0_0_n_n.rhsIdx_val_of_single rfl _ _).trans hk)
  rw [el, er]

theorem dotA_lhs0 (i : S512x16.Idx) (q : dot_S512x4096_S16x4096_S512x16_1_1_0_0_n_n.contr.Idx) : (dot_S512x4096_S16x4096_S512x16_1_1_0_0_n_n.lhsIdx i q 0).val = (i 0).val := by
  unfold DotDims.lhsIdx
  rw [dif_neg (show ¬(0 : Fin S512x4096.rank) ∈ dot_S512x4096_S16x4096_S512x16_1_1_0_0_n_n.lhsBatch by decide), dif_pos (show (0 : Fin S512x4096.rank) ∈ dot_S512x4096_S16x4096_S512x16_1_1_0_0_n_n.lhsNonContracting by decide)]
  rfl
theorem dotA_rhs0 (i : S512x16.Idx) (q : dot_S512x4096_S16x4096_S512x16_1_1_0_0_n_n.contr.Idx) : (dot_S512x4096_S16x4096_S512x16_1_1_0_0_n_n.rhsIdx i q 0).val = (i 1).val := by
  unfold DotDims.rhsIdx
  rw [dif_neg (show ¬(0 : Fin S16x4096.rank) ∈ dot_S512x4096_S16x4096_S512x16_1_1_0_0_n_n.rhsBatch by decide), dif_pos (show (0 : Fin S16x4096.rank) ∈ dot_S512x4096_S16x4096_S512x16_1_1_0_0_n_n.rhsNonContracting by decide)]
  rfl
/-- Rows of x against the 16 rows of A: entry `(p, r)` sums over the 4096 columns. -/
theorem dotA_apply (l : FVec Ideal S512x4096 .bf16) (r : FVec Ideal S16x4096 .bf16) (p : Fin 512) (n : Fin 16) :
    matmul dot_S512x4096_S16x4096_S512x16_1_1_0_0_n_n none l r (constant (F := Ideal) S512x16 .f32 0x00000000#32) (ix2 p n)
      = ∑ k : Fin 4096, l (ix2 p k) * r (ix2 n k) := by
  simp only [matmul]
  rw [Ideal.matmul_constant_zero_apply, ← Equiv.sum_comp (contrEquiv1 dot_S512x4096_S16x4096_S512x16_1_1_0_0_n_n 4096 rfl rfl).symm]
  refine Finset.sum_congr rfl fun k _ => ?_
  have hk := contrEquiv1_symm_val dot_S512x4096_S16x4096_S512x16_1_1_0_0_n_n 4096 rfl rfl k
  have el : dot_S512x4096_S16x4096_S512x16_1_1_0_0_n_n.lhsIdx (ix2 p n) ((contrEquiv1 dot_S512x4096_S16x4096_S512x16_1_1_0_0_n_n 4096 rfl rfl).symm k) = ix2 p k := funext fun a => Fin.ext (by
    match a with
    | ⟨0, _⟩ => exact dotA_lhs0 _ _
    | ⟨1, _⟩ => exact (dot_S512x4096_S16x4096_S512x16_1_1_0_0_n_n.lhsIdx_val_of_single rfl _ _).trans hk)
  have er : dot_S512x4096_S16x4096_S512x16_1_1_0_0_n_n.rhsIdx (ix2 p n) ((contrEquiv1 dot_S512x4096_S16x4096_S512x16_1_1_0_0_n_n 4096 rfl rfl).symm k) = ix2 n k := funext fun a => Fin.ext (by
    match a with
    | ⟨0, _⟩ => exact dotA_rhs0 _ _
    | ⟨1, _⟩ => exact (dot_S512x4096_S16x4096_S512x16_1_1_0_0_n_n.rhsIdx_val_of_single rfl _ _).trans hk)
  rw [el, er]

theorem dotB_lhs0 (i : S512x256.Idx) (q : dot_S512x16_S256x16_S512x256_1_1_0_0_n_n.contr.Idx) : (dot_S512x16_S256x16_S512x256_1_1_0_0_n_n.lhsIdx i q 0).val = (i 0).val := by
  unfold DotDims.lhsIdx
  rw [dif_neg (show ¬(0 : Fin S512x16.rank) ∈ dot_S512x16_S256x16_S512x256_1_1_0_0_n_n.lhsBatch by decide), dif_pos (show (0 : Fin S512x16.rank) ∈ dot_S512x16_S256x16_S512x256_1_1_0_0_n_n.lhsNonContracting by decide)]
  rfl
theorem dotB_rhs0 (i : S512x256.Idx) (q : dot_S512x16_S256x16_S512x256_1_1_0_0_n_n.contr.Idx) : (dot_S512x16_S256x16_S512x256_1_1_0_0_n_n.rhsIdx i q 0).val = (i 1).val := by
  unfold DotDims.rhsIdx
  rw [dif_neg (show ¬(0 : Fin S256x16.rank) ∈ dot_S512x16_S256x16_S512x256_1_1_0_0_n_n.rhsBatch by decide), dif_pos (show (0 : Fin S256x16.rank) ∈ dot_S512x16_S256x16_S512x256_1_1_0_0_n_n.rhsNonContracting by decide)]
  rfl
/-- The rank-16 rows against rows of B: entry `(p, n)` sums over the 16 columns. -/
theorem dotB_apply (l : FVec Ideal S512x16 .bf16) (r : FVec Ideal S256x16 .bf16) (p : Fin 512) (n : Fin 256) :
    matmul dot_S512x16_S256x16_S512x256_1_1_0_0_n_n none l r (constant (F := Ideal) S512x256 .f32 0x00000000#32) (ix2 p n)
      = ∑ k : Fin 16, l (ix2 p k) * r (ix2 n k) := by
  simp only [matmul]
  rw [Ideal.matmul_constant_zero_apply, ← Equiv.sum_comp (contrEquiv1 dot_S512x16_S256x16_S512x256_1_1_0_0_n_n 16 rfl rfl).symm]
  refine Finset.sum_congr rfl fun k _ => ?_
  have hk := contrEquiv1_symm_val dot_S512x16_S256x16_S512x256_1_1_0_0_n_n 16 rfl rfl k
  have el : dot_S512x16_S256x16_S512x256_1_1_0_0_n_n.lhsIdx (ix2 p n) ((contrEquiv1 dot_S512x16_S256x16_S512x256_1_1_0_0_n_n 16 rfl rfl).symm k) = ix2 p k := funext fun a => Fin.ext (by
    match a with
    | ⟨0, _⟩ => exact dotB_lhs0 _ _
    | ⟨1, _⟩ => exact (dot_S512x16_S256x16_S512x256_1_1_0_0_n_n.lhsIdx_val_of_single rfl _ _).trans hk)
  have er : dot_S512x16_S256x16_S512x256_1_1_0_0_n_n.rhsIdx (ix2 p n) ((contrEquiv1 dot_S512x16_S256x16_S512x256_1_1_0_0_n_n 16 rfl rfl).symm k) = ix2 n k := funext fun a => Fin.ext (by
    match a with
    | ⟨0, _⟩ => exact dotB_rhs0 _ _
    | ⟨1, _⟩ => exact (dot_S512x16_S256x16_S512x256_1_1_0_0_n_n.rhsIdx_val_of_single rfl _ _).trans hk)
  rw [el, er]

/-! ## The two re-layouts -/

/-- A [256, 64, 64] array re-read as [256, 4096] in row-major order: entry `(n, k)` is `(n, k / 64, k % 64)`. -/
theorem relayout_apply {α : Type} (v : S256x64x64.Idx → α) (h : S256x64x64.ShapeCasts S256x4096) (n : Fin 256) (k : Fin 4096) :
    shapeCast S256x4096 v h (ix2 n k) = v (ix3 n (subBlockOf k) (laneOf k)) := by
  refine shapeCast_apply v h (ix2 n k) (ix3 n (subBlockOf k) (laneOf k)) ?_
  rw [Shape.rowMajor_val_three, Shape.rowMajor_val_two]
  have hk := k.isLt
  show (n.val * 64 + k.val / 64) * 64 + k.val % 64 = n.val * 4096 + k.val
  omega

/-- A [256, 64] array given a trailing unit axis and spread along it to [256, 64, 64]: entry `(n, b, j)` is `(n, b)`. -/
theorem spread_apply {α : Type} (v : S256x64.Idx → α) (h1 : S256x64.ShapeCasts S256x64x1) (h2 : S256x64x1.Broadcasts S256x64x64)
    (n : Fin 256) (b j : Fin 64) :
    broadcastTo S256x64x64 (shapeCast S256x64x1 v h1) h2 (ix3 n b j) = v (ix2 n b) := by
  rw [broadcastTo_apply (shapeCast S256x64x1 v h1) h2 (ix3 n b j) (ix3 n b (0 : Fin 1)) (fun a => by
    match a with
    | ⟨0, _⟩ => show n.val = if (256 : Nat) = 1 then 0 else n.val; rw [if_neg (by decide)]
    | ⟨1, _⟩ => show b.val = if (64 : Nat) = 1 then 0 else b.val; rw [if_neg (by decide)]
    | ⟨2, _⟩ => show 0 = if (1 : Nat) = 1 then 0 else j.val; rw [if_pos rfl])]
  refine shapeCast_apply v h1 (ix3 n b (0 : Fin 1)) (ix2 n b) ?_
  rw [Shape.rowMajor_val_two, Shape.rowMajor_val_three]
  show n.val * 64 + b.val = (n.val * 64 + b.val) * 1 + 0
  omega

/-! ## The stored value at an index -/

/-- Entry `(p, n)` of the block the body stores, from the six blocks it loads. -/
def blockResult (x0 : S512x4096.Idx → EReal) (x1 : S256x64x64.Idx → BitVec 32) (x2 : S256x64.Idx → EReal)
    (x3 : S16x4096.Idx → EReal) (x4 : S256x16.Idx → EReal) (x5 : S1x256.Idx → EReal) (p : Fin 512) (n : Fin 256) : EReal :=
  ((∑ k : Fin 4096, x0 (ix2 p k)
        * (((((x1 (ix3 n (subBlockOf k) (laneOf k))).toInt : ℝ) : EReal) - Ideal.ofBits .f32 0x41000000#32) * x2 (ix2 n (subBlockOf k))))
      + x5 (ix2 (0 : Fin 1) n))
    + (∑ r : Fin 16, (∑ k : Fin 4096, x0 (ix2 p k) * x3 (ix2 r k)) * x4 (ix2 n r)) * Ideal.ofBits .f32 0x3F800000#32

theorem pay_apply (x0 : Vec Ideal S512x4096 .f32) (x1 : Vec Ideal S256x64x64 .i32) (x2 : Vec Ideal S256x64 .f32)
    (x3 : Vec Ideal S16x4096 .f32) (x4 : Vec Ideal S256x16 .f32) (x5 : Vec Ideal S1x256 .f32) (p : Fin 512) (n : Fin 256) :
    k0_pay1 (F := Ideal) x0 x1 x2 x3 x4 x5 (ix2 p n) = blockResult x0 x1 x2 x3 x4 x5 p n := by
  unfold k0_pay1
  rw [addf_apply, addf_apply, mulf_apply, broadcast_apply, dotW_apply, dotB_apply, broadcastTo_1b_ab_apply]
  simp only [truncf_apply, shapeCast_self, relayout_apply, mulf_apply, subf_apply, sitofp_apply, broadcast_apply, spread_apply,
    dotA_apply]
  rfl

/-- The same at any index of the block. -/
theorem pay_at (x0 : Vec Ideal S512x4096 .f32) (x1 : Vec Ideal S256x64x64 .i32) (x2 : Vec Ideal S256x64 .f32)
    (x3 : Vec Ideal S16x4096 .f32) (x4 : Vec Ideal S256x16 .f32) (x5 : Vec Ideal S1x256 .f32) (j : S512x256.Idx) :
    k0_pay1 (F := Ideal) x0 x1 x2 x3 x4 x5 j = blockResult x0 x1 x2 x3 x4 x5 (j 0) (j 1) :=
  (congrArg (k0_pay1 (F := Ideal) x0 x1 x2 x3 x4 x5) (eq_ix2 j)).trans (pay_apply x0 x1 x2 x3 x4 x5 (j 0) (j 1))

end Cert.QLinear.Body

end
-- ==== Proof.KernelArray.lean ====
/-
  From blocks to the array: what the region leaves in its [8192, 4096] result array.

  The grid has 16 x 16 points; at point `t = (tm, tn)` the body sees rows `512 tm ..` of the [8192, 4096] array of x,
  rows `256 tn ..` of the code words [4096, 64, 64], of the scales [4096, 64] and of B [4096, 16], all of A, and columns
  `256 tn ..` of the bias [1, 4096], and writes block `(tm, tn)` of the result. A block's coordinate in its array is
  always index x size + the coordinate inside the block, so entry `(p, n)` of the stored block is entry
  `(512 tm + p, 256 tn + n)` of ONE function of the whole arrays (`arrayResult`), and the 256 blocks tile the array.
-/
import proofs.«136830_j9380208575265_2_alg».proof.Proof.Gen.KernelIdeal.Frame
import proofs.«136830_j9380208575265_2_alg».proof.Proof.KernelBody
import Idealize.ShloMosaic.Lib.Pipeline.Value

set_option maxRecDepth 16384

noncomputable section

namespace Cert.QLinear.Blocks

open Cert.KernelIdeal Cert.KernelIdeal.Gen Idealize.ShloMosaic Idealize.ShloMosaic.TcCoe Idealize.ShloMosaic.ValueIdx
open Idealize.SL.Sem Cert.QLinear Cert.QLinear.Body
open Idealize.ShloMosaic.Pipeline (Dat Cfg Window)

/-! ## One function of the whole arrays -/

/-- Entry `(P, O)` of the region's result from the arrays as the region finds them: x as [8192, 4096], the code words as
    [4096, 64, 64], the scales as [4096, 64], A, B, and the bias as [1, 4096]. -/
def arrayResult (X2 : S8192x4096.Idx → EReal) (Q3 : S4096x64x64.Idx → BitVec 32) (S2 : S4096x64.Idx → EReal)
    (A : S16x4096.Idx → EReal) (B : S4096x16.Idx → EReal) (B2 : S1x4096.Idx → EReal) (P : Fin 8192) (O : Fin 4096) : EReal :=
  ((∑ k : Fin 4096, X2 (ix2 P k)
        * (((((Q3 (ix3 O (subBlockOf k) (laneOf k))).toInt : ℝ) : EReal) - Ideal.ofBits .f32 0x41000000#32) * S2 (ix2 O (subBlockOf k))))
      + B2 (ix2 (0 : Fin 1) O))
    + (∑ r : Fin 16, (∑ k : Fin 4096, X2 (ix2 P k) * A (ix2 r k)) * B (ix2 O r)) * Ideal.ofBits .f32 0x3F800000#32

/-- The same as an array. -/
def arrayFn (X2 : S8192x4096.Idx → EReal) (Q3 : S4096x64x64.Idx → BitVec 32) (S2 : S4096x64.Idx → EReal)
    (A : S16x4096.Idx → EReal) (B : S4096x16.Idx → EReal) (B2 : S1x4096.Idx → EReal) : S8192x4096.Idx → EReal :=
  fun i => arrayResult X2 Q3 S2 A B B2 (i 0) (i 1)

/-- A stored block's entry is the whole-array function's, once each loaded block is known to be the matching rows of its
    array. -/
theorem blockResult_eq (X2 : S8192x4096.Idx → EReal) (Q3 : S4096x64x64.Idx → BitVec 32) (S2 : S4096x64.Idx → EReal)
    (A : S16x4096.Idx → EReal) (B : S4096x16.Idx → EReal) (B2 : S1x4096.Idx → EReal)
    (x0 : S512x4096.Idx → EReal) (x1 : S256x64x64.Idx → BitVec 32) (x2 : S256x64.Idx → EReal)
    (x3 : S16x4096.Idx → EReal) (x4 : S256x16.Idx → EReal) (x5 : S1x256.Idx → EReal)
    (P : Fin 8192) (O : Fin 4096) (p : Fin 512) (n : Fin 256)
    (h0 : ∀ k : Fin 4096, x0 (ix2 p k) = X2 (ix2 P k))
    (h1 : ∀ (b l : Fin 64), x1 (ix3 n b l) = Q3 (ix3 O b l))
    (h2 : ∀ b : Fin 64, x2 (ix2 n b) = S2 (ix2 O b))
    (h3 : ∀ (r : Fin 16) (k : Fin 4096), x3 (ix2 r k) = A (ix2 r k))
    (h4 : ∀ r : Fin 16, x4 (ix2 n r) = B (ix2 O r))
    (h5 : x5 (ix2 (0 : Fin 1) n) = B2 (ix2 (0 : Fin 1) O)) :
    blockResult x0 x1 x2 x3 x4 x5 p n = arrayResult X2 Q3 S2 A B B2 P O := by
  unfold blockResult arrayResult
  simp only [h0, h1, h2, h3, h4, h5]

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- How each input window's block index follows the output's, decided at the 256 points. -/
theorem idx_facts : ∀ t : Fin cfg0.N,
    win0_0.index t (0 : Fin 2) = win0_6.index t (0 : Fin 2) ∧ win0_0.index t (1 : Fin 2) = 0
    ∧ win0_1.index t (0 : Fin 3) = win0_6.index t (1 : Fin 2) ∧ win0_1.index t (1 : Fin 3) = 0 ∧ win0_1.index t (2 : Fin 3) = 0
    ∧ win0_2.index t (0 : Fin 2) = win0_6.index t (1 : Fin 2) ∧ win0_2.index t (1 : Fin 2) = 0
    ∧ win0_3.index t (0 : Fin 2) = 0 ∧ win0_3.index t (1 : Fin 2) = 0
    ∧ win0_4.index t (0 : Fin 2) = win0_6.index t (1 : Fin 2) ∧ win0_4.index t (1 : Fin 2) = 0
    ∧ win0_5.index t (0 : Fin 2) = 0 ∧ win0_5.index t (1 : Fin 2) = win0_6.index t (1 : Fin 2)
    ∧ win0_6.index t (0 : Fin 2) ≤ 15 ∧ win0_6.index t (1 : Fin 2) ≤ 15 :=
  (by decide +kernel : ∀ t : Fin grid0.N, _)

/-- Every block of the result is some point's. -/
theorem idx_onto : ∀ (q0 : Fin 16) (q1 : Fin 16), ∃ t : Fin cfg0.N, win0_6.index t = ![q0.val, q1.val] :=
  (by decide +kernel : ∀ (q0 : Fin 16) (q1 : Fin 16), ∃ t : Fin grid0.N, win0_6.index t = ![q0.val, q1.val])

variable (m : (ℓ : Loc nD τ sig) → Buf (Elt Ideal) ℓ)

/-! ## What a point writes back -/

/-- The whole-array function of the arrays as the region finds them. -/
abbrev regionFn (c : Dev nD) : S8192x4096.Idx → EReal :=
  arrayFn (V m c main_v0) (V m c main_v1) (V m c main_v2) (V m c main_arg3) (V m c main_arg4) (V m c main_v3)

/-- Point `t` writes back block `t` of the whole-array function. -/
theorem flushed_eq (c : Dev nD) (t : Fin cfg0.N) :
    (dats m 0 c).flushed 6 t = ((cfg0.win 6).blk t).view.read (Elt Ideal) (regionFn m c) := by
  show (cfg0.win 6).cut (grid0.coords t) ((dats m 0 c).after 6 t) = _
  rw [after0_6]
  unfold out0_6
  rw [View.canon_unit_zero hz2]
  simp only [View.ld_unit_zero (S := S512x4096) hz2, View.ld_unit_zero (S := S256x64x64) hz3, View.ld_unit_zero (S := S256x64) hz2,
    View.ld_unit_zero (S := S16x4096) hz2, View.ld_unit_zero (S := S256x16) hz2, View.ld_unit_zero (S := S1x256) hz2]
  obtain ⟨e00, e01, e10, e11, e12, e20, e21, e30, e31, e40, e41, e50, e51, -, -⟩ := idx_facts t
  funext j
  show k0_pay1 (iblk m c 0 t) (iblk m c 1 t) (iblk m c 2 t) (iblk m c 3 t) (iblk m c 4 t) (iblk m c 5 t) j
      = arrayResult (V m c main_v0) (V m c main_v1) (V m c main_v2) (V m c main_arg3) (V m c main_arg4) (V m c main_v3)
          ((((cfg0.win 6).blk t).view.emb j) 0) ((((cfg0.win 6).blk t).view.emb j) 1)
  refine (pay_at (iblk m c 0 t) (iblk m c 1 t) (iblk m c 2 t) (iblk m c 3 t) (iblk m c 4 t) (iblk m c 5 t) j).trans ?_
  refine blockResult_eq (V m c main_v0) (V m c main_v1) (V m c main_v2) (V m c main_arg3) (V m c main_arg4) (V m c main_v3)
    (iblk m c 0 t) (iblk m c 1 t) (iblk m c 2 t) (iblk m c 3 t) (iblk m c 4 t) (iblk m c 5 t)
    ((((cfg0.win 6).blk t).view.emb j) 0) ((((cfg0.win 6).blk t).view.emb j) 1) (j 0) (j 1) ?_ ?_ ?_ ?_ ?_ ?_
  · -- rows of x: the block's row index is the output block's, its column index 0
    intro k
    show V m c main_v0 (((cfg0.win 0).blk t).view.emb (ix2 (j 0) k)) = V m c main_v0 (ix2 ((((cfg0.win 6).blk t).view.emb j) 0) k)
    refine congrArg (V m c main_v0) (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 4096 + 1 * k.val = k.val; omega
  · -- rows of the code words: the output block's column index
    intro b l
    show V m c main_v1 (((cfg0.win 1).blk t).view.emb (ix3 (j 1) b l)) = V m c main_v1 (ix3 ((((cfg0.win 6).blk t).view.emb j) 1) b l)
    refine congrArg (V m c main_v1) (funext fun a => Fin.ext ?_)
    match a with
    | ⟨0, _⟩ => show win0_1.index t (0 : Fin 3) * 256 + 1 * (j 1).val = win0_6.index t (1 : Fin 2) * 256 + 1 * (j 1).val; omega
    | ⟨1, _⟩ => show win0_1.index t (1 : Fin 3) * 64 + 1 * b.val = b.val; omega
    | ⟨2, _⟩ => show win0_1.index t (2 : Fin 3) * 64 + 1 * l.val = l.val; omega
  · -- rows of the scales
    intro b
    show V m c main_v2 (((cfg0.win 2).blk t).view.emb (ix2 (j 1) b)) = V m c main_v2 (ix2 ((((cfg0.win 6).blk t).view.emb j) 1) b)
    refine congrArg (V m c main_v2) (funext fun a => Fin.ext ?_)
    match a with
    | ⟨0, _⟩ => show win0_2.index t (0 : Fin 2) * 256 + 1 * (j 1).val = win0_6.index t (1 : Fin 2) * 256 + 1 * (j 1).val; omega
    | ⟨1, _⟩ => show win0_2.index t (1 : Fin 2) * 64 + 1 * b.val = b.val; omega
  · -- all of A
    intro r k
    show V m c main_arg3 (((cfg0.win 3).blk t).view.emb (ix2 r k)) = V m c main_arg3 (ix2 r k)
    refine congrArg (V m c main_arg3) (funext fun a => Fin.ext ?_)
    match a with
    | ⟨0, _⟩ => show win0_3.index t (0 : Fin 2) * 16 + 1 * r.val = r.val; omega
    | ⟨1, _⟩ => show win0_3.index t (1 : Fin 2) * 4096 + 1 * k.val = k.val; omega
  · -- rows of B
    intro r
    show V m c main_arg4 (((cfg0.win 4).blk t).view.emb (ix2 (j 1) r)) = V m c main_arg4 (ix2 ((((cfg0.win 6).blk t).view.emb j) 1) r)
    refine congrArg (V m c main_arg4) (funext fun a => Fin.ext ?_)
    match a with
    | ⟨0, _⟩ => show win0_4.index t (0 : Fin 2) * 256 + 1 * (j 1).val = win0_6.index t (1 : Fin 2) * 256 + 1 * (j 1).val; omega
    | ⟨1, _⟩ => show win0_4.index t (1 : Fin 2) * 16 + 1 * r.val = r.val; omega
  · -- columns of the bias
    show V m c main_v3 (((cfg0.win 5).blk t).view.emb (ix2 (0 : Fin 1) (j 1))) = V m c main_v3 (ix2 (0 : Fin 1) ((((cfg0.win 6).blk t).view.emb j) 1))
    refine congrArg (V m c main_v3) (funext fun a => Fin.ext ?_)
    match a with
    | ⟨0, _⟩ => show win0_5.index t (0 : Fin 2) * 1 + 1 * 0 = 0; omega
    | ⟨1, _⟩ => show win0_5.index t (1 : Fin 2) * 256 + 1 * (j 1).val = win0_6.index t (1 : Fin 2) * 256 + 1 * (j 1).val; omega

/-! ## The blocks tile the array -/

/-- An index is in point `t`'s block iff each coordinate is in the block's range on its axis. -/
theorem mem_blk (t : Fin cfg0.N) (i : S8192x4096.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v4).slice (win0_6.rect t)).set ↔ _
  rw [View.set_slice_whole, Rect.mem_set_unit]
  exact Iff.rfl

/-- Entry `(P, O)` lies in the block of the point with block indices `(P / 512, O / 256)`. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- So the result array ends holding the whole-array function of the arrays as the region finds them. -/
theorem final (c : Dev nD) : (dats m 0 c).arrAt 6 cfg0.N = regionFn m c :=
  (dats m 0 c).arrAt_eq_of_cover 6 (regionFn m c) (fun t _ => flushed_eq m c t) cover

end Cert.QLinear.Blocks

end
-- ==== Proof.KernelValue.lean ====
/-
  The kernel's result is `G` of its arguments, where every code word is a 4-bit code.

  Around the region the program only re-reads arrays in row-major order: x [4, 2048, 4096] as [8192, 4096] (row
  `i0 * 2048 + i1`), the code words [262144, 64] as [4096, 64, 64] (block `o * 64 + b` is row `o`, block `b`), the scales
  [262144] as [4096, 64], the bias [4096] as [1, 4096], and the region's [8192, 4096] result as [4, 2048, 4096]. Read
  through these, entry `(i0 * 2048 + i1, o)` of the region's whole-array function is the specification's sum at
  `(i0, i1, o)` with the code taken as "integer of the word, minus the real 8"; for a word in [0, 15] that is the
  specification's code.
-/
import proofs.«136830_j9380208575265_2_alg».proof.Proof.KernelArray
import proofs.«136830_j9380208575265_2_alg».proof.Proof.Spec
import Idealize.ShloMosaic.Lib.StableHlo.Run
import Idealize.ShloMosaic.Lib.Pipeline.Value

set_option maxRecDepth 16384

noncomputable section

namespace Cert.QLinear.KernelValue

open Cert.KernelIdeal Cert.KernelIdeal.Gen Idealize.ShloMosaic Idealize.ShloMosaic.TcCoe Idealize.ShloMosaic.ValueIdx
open Idealize.SL.Sem Cert.QLinear Cert.QLinear.Blocks Idealize.ShloMosaic.StableHlo

/-! ## The whole-array function read through the re-layouts is the specification -/

/-- Entry `(P, o)` of the region's function, `P = i0 * 2048 + i1`, is the specification at `(i0, i1, o)`, given that the
    arrays the region finds are the arguments re-read (`hX`, `hQ`, `hS`, `hB`) and every code word lies in [0, 15]. -/
theorem arrayResult_eq_G (x : SX.Idx → EReal) (q : SQ.Idx → BitVec 32) (sc : SS.Idx → EReal) (A : SA.Idx → EReal)
    (B : SB.Idx → EReal) (b : SBias.Idx → EReal)
    (X2 : S8192x4096.Idx → EReal) (Q3 : S4096x64x64.Idx → BitVec 32) (S2 : S4096x64.Idx → EReal) (A' : S16x4096.Idx → EReal)
    (B' : S4096x16.Idx → EReal) (B2 : S1x4096.Idx → EReal)
    (i : SX.Idx) (P : Fin 8192) (hA : A' = A) (hB' : B' = B)
    (hX : ∀ k : Fin 4096, X2 (ix2 P k) = x (ix3 (i 0) (i 1) k))
    (hQ : ∀ k : Fin 4096, Q3 (ix3 (i 2) (subBlockOf k) (laneOf k)) = q (ix2 (blockOf (i 2) k) (laneOf k)))
    (hS : ∀ k : Fin 4096, S2 (ix2 (i 2) (subBlockOf k)) = sc (ix1 (blockOf (i 2) k)))
    (hB : B2 (ix2 (0 : Fin 1) (i 2)) = b (ix1 (i 2)))
    (hq : ∀ j, 0 ≤ (q j).toInt ∧ (q j).toInt ≤ 15) :
    arrayResult X2 Q3 S2 A' B' B2 P (i 2) = G x q sc A B b i := by
  subst hA hB'
  have hc : ∀ j, (((q j).toInt : ℝ) : EReal) - Ideal.ofBits .f32 0x41000000#32 = code (q j) :=
    fun j => code_eq _ (hq j).1 (hq j).2
  unfold arrayResult G weight
  simp only [hX, hQ, hS, hB, hc]

variable (m : (ℓ : Loc nD τ sig) → Buf (Elt Ideal) ℓ)

/-! ## The arrays as the region finds them -/

theorem V_x (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

theorem V_q (c : Dev nD) : (V m c main_v1 : S4096x64x64.Idx → BitVec 32)
    = shapeCast S4096x64x64 (m ((c : Thread nD τ).loc main_arg1)) shapeCasts_S262144x64_S4096x64x64 := by
  show StableHlo.after hostOps0 (fun b => m (c, b)) (Proc.devRef .tc main_v1) = _
  after_results
  rfl

theorem V_s (c : Dev nD) : (V m c main_v2 : S4096x64.Idx → EReal)
    = shapeCast S4096x64 (m ((c : Thread nD τ).loc main_arg2)) shapeCasts_S262144_S4096x64 := by
  show StableHlo.after hostOps0 (fun b => m (c, b)) (Proc.devRef .tc main_v2) = _
  after_results
  rfl

theorem V_b (c : Dev nD) : (V m c main_v3 : S1x4096.Idx → EReal)
    = shapeCast S1x4096 (m ((c : Thread nD τ).loc main_arg5)) shapeCasts_S4096_S1x4096 := by
  show StableHlo.after hostOps0 (fun b => m (c, b)) (Proc.devRef .tc main_v3) = _
  after_results
  rfl

/-! ## The result after the region -/

theorem tail_eq (c : Dev nD) :
    Pipeline.afterTail₀ cfgs (dats m) 0 (V0 m) [hostOps1] c main_v5
      = shapeCast S4x2048x4096 (regionFn m c) shapeCasts_S8192x4096_S4x2048x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = regionFn m c :=
    (Pipeline.withArrays_arr spec0 launch0.win.arr_inj c _ _ 6).trans (final m c)
  funext i
  exact congrFun (congrArg (fun v => shapeCast S4x2048x4096 v shapeCasts_S8192x4096_S4x2048x4096) e) i

/-- The kernel's result array is `G` of the arguments, where every code word lies in [0, 15]. -/
theorem result_eq (c : Dev nD)
    (hq : ∀ j, 0 ≤ (m ((c : Thread nD τ).loc main_arg1) j).toInt ∧ (m ((c : Thread nD τ).loc main_arg1) j).toInt ≤ 15) :
    Pipeline.afterTail₀ cfgs (dats m) 0 (V0 m) [hostOps1] c main_v5
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq]
  funext i
  have hi0 : (i 0).val < 4 := (i 0).isLt
  have hi1 : (i 1).val < 2048 := (i 1).isLt
  -- entry (i0, i1, o) of the re-read result is entry (i0 * 2048 + i1, o) of the region's array
  have hP : (i 0).val * 2048 + (i 1).val < 8192 := by omega
  rw [shapeCast_apply (regionFn m c) shapeCasts_S8192x4096_S4x2048x4096 i (ix2 (⟨(i 0).val * 2048 + (i 1).val, hP⟩ : Fin 8192) (i 2)) (by
    rw [Shape.rowMajor_val_two, Shape.rowMajor_val_three]
    show ((i 0).val * 2048 + (i 1).val) * 4096 + (i 2).val = ((i 0).val * 2048 + (i 1).val) * 4096 + (i 2).val
    rfl)]
  show arrayResult (V m c main_v0) (V m c main_v1) (V m c main_v2) (V m c main_arg3) (V m c main_arg4) (V m c main_v3)
      (⟨(i 0).val * 2048 + (i 1).val, hP⟩ : Fin 8192) (i 2) = _
  refine arrayResult_eq_G _ _ _ _ _ _ (V m c main_v0) (V m c main_v1) (V m c main_v2) (V m c main_arg3) (V m c main_arg4) (V m c main_v3)
    i ⟨(i 0).val * 2048 + (i 1).val, hP⟩ (V_main_arg3 m c) (V_main_arg4 m c) ?_ ?_ ?_ ?_ hq
  · intro k
    rw [V_x]
    refine shapeCast_apply _ _ _ (ix3 (i 0) (i 1) k) ?_
    rw [Shape.rowMajor_val_three, Shape.rowMajor_val_two]
    show ((i 0).val * 2048 + (i 1).val) * 4096 + k.val = ((i 0).val * 2048 + (i 1).val) * 4096 + k.val
    rfl
  · intro k
    rw [V_q]
    refine shapeCast_apply _ _ _ (ix2 (blockOf (i 2) k) (laneOf k)) ?_
    rw [Shape.rowMajor_val_three, Shape.rowMajor_val_two]
    show ((i 2).val * 64 + k.val / 64) * 64 + k.val % 64 = ((i 2).val * 64 + k.val / 64) * 64 + k.val % 64
    rfl
  · intro k
    rw [V_s]
    refine shapeCast_apply _ _ _ (ix1 (blockOf (i 2) k)) ?_
    rw [Shape.rowMajor_val_one, Shape.rowMajor_val_two]
    show (i 2).val * 64 + k.val / 64 = (i 2).val * 64 + k.val / 64
    rfl
  · rw [V_b]
    refine shapeCast_apply _ _ _ (ix1 (i 2)) ?_
    rw [Shape.rowMajor_val_one, Shape.rowMajor_val_two]
    show (i 2).val = 0 * 4096 + (i 2).val
    omega

/-! ## The run -/

/-- Every weakly fair execution of the kernel's program terminates with the result array at `G` of the arguments and the
    arguments unchanged, from any memory whose code words all lie in [0, 15]. -/
theorem run (ρ : Dev nD → PrngReg)
    (hq : ∀ (c : Dev nD) j, 0 ≤ (m ((c : Thread nD τ).loc main_arg1) j).toInt ∧ (m ((c : Thread nD τ).loc main_arg1) j).toInt ≤ 15) :
    θ_run defs (onTc (τ := τ) (main (F := Ideal))) ⟨m, fun _ => 0, ρ⟩ (fun r => ∀ c : Dev nD,
      r.2.mem ((c.tc : Thread nD τ).loc main_v5)
          = G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (Pipeline.mem_restRefs_of main_v5 (by decide) (by decide))).trans (result_eq m c (hq c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.QLinear.KernelValue

end
-- ==== Proof.lean ====
/-
  A 4-bit block-quantized linear layer with a rank-16 correction: the kernel against its reference, over the extended
  reals.

  Both programs compute, for x of shape [4, 2048, 4096], a 4096 x 4096 weight matrix stored as 32-bit code words `q`
  (64 words per block, one scale per block), A [16, 4096], B [4096, 16] and a bias b,

    out[i0, i1, o] = (sum_k x[i0, i1, k] * W[o, k]) + b[o] + (sum_r (sum_k x[i0, i1, k] * A[r, k]) * B[o, r]) * 1,
    W[o, k] = (q[o * 64 + k / 64, k % 64] - 8) * scale[o * 64 + k / 64]

  (`Cert.QLinear.G`, Proof/Spec.lean). The kernel tiles the [8192, 4096] result into 16 x 16 blocks, each one
  body: three matrix products into zero accumulators, which over the extended reals are the plain sums over the contracted
  axis, in the reference's own grouping — so the two results are the same expression, term by term, except for the code
  `q - 8`. The reference subtracts among 32-bit words and then converts; the kernel converts and subtracts the real
  number 8. These differ exactly when the word subtraction wraps, so the claim is stated for 4-bit codes, `0 ≤ q ≤ 15`
  (what the reference documents of its codes), where both are the integer `q - 8` (`Cert.QLinear.code_eq`).

  The modules: Spec (the function `G` and the code law), RefValue (the reference's result is `G`, one operation at a
  time), KernelBody (the body's stored block at an index), KernelArray (the 256 blocks tile the result array, which ends
  holding one function of the arrays the region finds), KernelValue (those arrays and the result are the arguments and `G`
  re-read in row-major order; the kernel's run), CodeRange (the precondition gives `0 ≤ q ≤ 15`). Finiteness of the float
  inputs is never used: no law beyond the definitions joins the two sides.
-/
import proofs.«136830_j9380208575265_2_alg».proof.Defs
import proofs.«136830_j9380208575265_2_alg».proof.Proof.Gen.Kernel
import proofs.«136830_j9380208575265_2_alg».proof.Proof.Gen.Kernel.Skeleton
import proofs.«136830_j9380208575265_2_alg».proof.Proof.Gen.Kernel.Launch
import proofs.«136830_j9380208575265_2_alg».proof.Proof.Gen.Kernel.Points
import proofs.«136830_j9380208575265_2_alg».proof.Proof.Gen.Kernel.Frame
import proofs.«136830_j9380208575265_2_alg».proof.Proof.Gen.KernelIdeal
import proofs.«136830_j9380208575265_2_alg».proof.Proof.Gen.KernelIdeal.Skeleton
import proofs.«136830_j9380208575265_2_alg».proof.Proof.Gen.KernelIdeal.Launch
import proofs.«136830_j9380208575265_2_alg».proof.Proof.Gen.KernelIdeal.Points
import proofs.«136830_j9380208575265_2_alg».proof.Proof.Gen.KernelIdeal.Frame
import proofs.«136830_j9380208575265_2_alg».proof.Proof.Gen.ReferenceIdeal
import proofs.«136830_j9380208575265_2_alg».proof.Proof.Gen.ReferenceIdeal.Run
import proofs.«136830_j9380208575265_2_alg».proof.Proof.Gen.ReferenceIdeal.Read
import proofs.«136830_j9380208575265_2_alg».proof.Proof.Gen.Pre_finite_inputs
import proofs.«136830_j9380208575265_2_alg».proof.Proof.Spec
import proofs.«136830_j9380208575265_2_alg».proof.Proof.RefValue
import proofs.«136830_j9380208575265_2_alg».proof.Proof.CodeRange
import proofs.«136830_j9380208575265_2_alg».proof.Proof.KernelValue
import Idealize.ShloMosaic.Adequacy
import Idealize.ShloMosaic.Init

noncomputable section

namespace Cert.Proof

open Idealize.ShloMosaic Idealize.SL.Sem

/-- The three programs run, fault nowhere and leave their arguments as they were: the two kernels by their generated
    frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories agreeing on the arguments, whose code words are 4-bit codes, both programs end with the result at
    `G` of the arguments. -/
theorem algebraic : Cert.algebraic_KernelIdeal_ReferenceIdeal := by
  intro m ρ m' ρ' hpre hagree
  refine ⟨_, Cert.QLinear.KernelValue.run m ρ (fun c j => Cert.QLinear.CodeRange.of_pre _ _ _ _ _ _ (hpre c) j), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.QLinear.Ref.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
